-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x3 : Shape := ⟨4, ![32, 512, 512, 3]⟩
abbrev S_ : Shape := ⟨0, ![]⟩

class Facts : Prop where
  bcast_S_S32x512x512x3 : S_.BroadcastsInDim S32x512x512x3 (![] : Fin 0 → Fin S32x512x512x3.rank)
  reducesTo_S32x512x512x3_S_d0_1_2_3 : S32x512x512x3.ReducesTo [0, 1, 2, 3] S_
  h_S_ : 0 < S_.numel

variable [Facts]

def fn {F : FTy → Type} [FloatOps F] (main_arg0 : FVec F S32x512x512x3 .f32) : IVec S_ 1 :=
  let main_v0 : FVec F S32x512x512x3 .f32 := Host.absf main_arg0
  let main_cst : FVec F S_ .f32 := constant S_ .f32 0x7F800000#32
  let main_v1 : FVec F S32x512x512x3 .f32 := broadcastInDim S32x512x512x3 ![] bcast_S_S32x512x512x3 main_cst
  let main_v2 : IVec S32x512x512x3 1 := cmpf .olt main_v0 main_v1
  let main_c : IVec S_ 1 := constantI S_ 1 1#1
  let main_v3 : IVec S_ 1 := (fun x v => Host.reduce IntOp.andi x v reducesTo_S32x512x512x3_S_d0_1_2_3 h_S_) main_v2 main_c
  main_v3
-- ==== Kernel.lean ====
abbrev S32x512x512x3 : Shape := ⟨4, ![32, 512, 512, 3]⟩
abbrev S32x512x1536 : Shape := ⟨3, ![32, 512, 1536]⟩
abbrev S1x512x1536 : Shape := ⟨3, ![1, 512, 1536]⟩
abbrev S526x1578 : Shape := ⟨2, ![526, 1578]⟩
abbrev S512x1536 : Shape := ⟨2, ![512, 1536]⟩
abbrev S525x1578 : Shape := ⟨2, ![525, 1578]⟩
abbrev S523x1578 : Shape := ⟨2, ![523, 1578]⟩
abbrev S519x1578 : Shape := ⟨2, ![519, 1578]⟩
abbrev S512x1578 : Shape := ⟨2, ![512, 1578]⟩
abbrev S512x1575 : Shape := ⟨2, ![512, 1575]⟩
abbrev S512x1569 : Shape := ⟨2, ![512, 1569]⟩
abbrev S512x1557 : Shape := ⟨2, ![512, 1557]⟩

abbrev nBuf : Space → Nat
  | .hbm => 4
  | .vmem => 5
  | .smem => 0
  | _ => 0

abbrev bufTy : (tb : Table) → Fin (tcTables nBuf tb) → BufTy
  | .hbm, ⟨0, _⟩ => ⟨S32x512x512x3, .f32⟩
  | .hbm, ⟨1, _⟩ => ⟨S32x512x1536, .f32⟩
  | .hbm, ⟨2, _⟩ => ⟨S32x512x1536, .f32⟩
  | .hbm, ⟨3, _⟩ => ⟨S32x512x512x3, .f32⟩
  | .local _ .vmem, ⟨0, _⟩ => ⟨S1x512x1536, .f32⟩
  | .local _ .vmem, ⟨1, _⟩ => ⟨S1x512x1536, .f32⟩
  | .local _ .vmem, ⟨2, _⟩ => ⟨S1x512x1536, .f32⟩
  | .local _ .vmem, ⟨3, _⟩ => ⟨S1x512x1536, .f32⟩
  | .local _ .vmem, ⟨4, _⟩ => ⟨S526x1578, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x512x512x3_S32x512x1536 : S32x512x512x3.ShapeCasts S32x512x1536
  inb_S526x1578_S526x1578_0_0 : ∀ a, (![0, 0] : Fin 2 → Nat) a + S526x1578.size a ≤ S526x1578.size a
  h_S526x1578 : 0 < S526x1578.numel
  shapeCasts_S526x1578_S526x1578 : S526x1578.ShapeCasts S526x1578
  inb_S1x512x1536_S1x512x1536_0_0_0 : ∀ a, (![0, 0, 0] : Fin 3 → Nat) a + S1x512x1536.size a ≤ S1x512x1536.size a
  h_S1x512x1536 : 0 < S1x512x1536.numel
  shapeCasts_S1x512x1536_S512x1536 : S1x512x1536.ShapeCasts S512x1536
  inb_S526x1578_S512x1536_7_21 : ∀ a, (![7, 21] : Fin 2 → Nat) a + S512x1536.size a ≤ S526x1578.size a
  h_S512x1536 : 0 < S512x1536.numel
  shapeCasts_S512x1536_S512x1536 : S512x1536.ShapeCasts S512x1536
  inb_S526x1578_S525x1578_0_0 : ∀ a, (![0, 0] : Fin 2 → Nat) a + S525x1578.size a ≤ S526x1578.size a
  h_S525x1578 : 0 < S525x1578.numel
  inb_S526x1578_S525x1578_1_0 : ∀ a, (![1, 0] : Fin 2 → Nat) a + S525x1578.size a ≤ S526x1578.size a
  slices_S525x1578_o0_0_S523x1578 : S525x1578.Slices ![0, 0] S523x1578
  slices_S525x1578_o2_0_S523x1578 : S525x1578.Slices ![2, 0] S523x1578
  slices_S523x1578_o0_0_S519x1578 : S523x1578.Slices ![0, 0] S519x1578
  slices_S523x1578_o4_0_S519x1578 : S523x1578.Slices ![4, 0] S519x1578
  slices_S519x1578_o0_0_S512x1578 : S519x1578.Slices ![0, 0] S512x1578
  slices_S519x1578_o7_0_S512x1578 : S519x1578.Slices ![7, 0] S512x1578
  slices_S512x1578_o0_0_S512x1575 : S512x1578.Slices ![0, 0] S512x1575
  slices_S512x1578_o0_3_S512x1575 : S512x1578.Slices ![0, 3] S512x1575
  slices_S512x1575_o0_0_S512x1569 : S512x1575.Slices ![0, 0] S512x1569
  slices_S512x1575_o0_6_S512x1569 : S512x1575.Slices ![0, 6] S512x1569
  slices_S512x1569_o0_0_S512x1557 : S512x1569.Slices ![0, 0] S512x1557
  slices_S512x1569_o0_12_S512x1557 : S512x1569.Slices ![0, 12] S512x1557
  slices_S512x1557_o0_0_S512x1536 : S512x1557.Slices ![0, 0] S512x1536
  slices_S512x1557_o0_21_S512x1536 : S512x1557.Slices ![0, 21] S512x1536
  shapeCasts_S512x1536_S1x512x1536 : S512x1536.ShapeCasts S1x512x1536
  shapeCasts_S32x512x1536_S32x512x512x3 : S32x512x1536.ShapeCasts S32x512x512x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1536.size a ≤ S32x512x1536.size a
  hwx0_0 : ∀ i : grid0.Coords, EltTy.bits .f32 = 32 ∨ (Rect.block (s := S32x512x1536) S1x512x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1536.size a ≤ S32x512x1536.size a
  hwx0_1 : ∀ i : grid0.Coords, EltTy.bits .f32 = 32 ∨ (Rect.block (s := S32x512x1536) S1x512x1536.size (cc0_transform_1 i) (hinb0_1 i)).WholeWords (EltTy.packing .f32)

variable [Facts₀]

abbrev win0_0 : Pipeline.Window sig grid0 :=
  Pipeline.Window.ofSpec (Memref.whole main_v0) S1x512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x512x512x3 : Shape := ⟨4, ![32, 512, 512, 3]⟩
abbrev S_ : Shape := ⟨0, ![]⟩
abbrev S32x526x526x3 : Shape := ⟨4, ![32, 526, 526, 3]⟩

abbrev nBuf : Space → Nat
  | .hbm => 6
  | .vmem => 0
  | .smem => 0
  | _ => 0

abbrev bufTy : (tb : Table) → Fin (tcTables nBuf tb) → BufTy
  | .hbm, ⟨0, _⟩ => ⟨S32x512x512x3, .f32⟩
  | .hbm, ⟨1, _⟩ => ⟨S_, .f32⟩
  | .hbm, ⟨2, _⟩ => ⟨S_, .f32⟩
  | .hbm, ⟨3, _⟩ => ⟨S32x526x526x3, .f32⟩
  | .hbm, ⟨4, _⟩ => ⟨S_, .f32⟩
  | .hbm, ⟨5, _⟩ => ⟨S32x512x512x3, .f32⟩
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  pads_S32x512x512x3_S32x526x526x3_000_770_770_000 : S32x512x512x3.Pads (![0, 7, 7, 0] : Fin 4 → Nat) ![0, 7, 7, 0] ![0, 0, 0, 0] S32x526x526x3
  h_S_ : 0 < S_.numel
  reduceWindows_S32x526x526x3_S32x512x512x3_w1s1p0_0_w15s1p0_0_w15s1p0_0_w1s1p0_0 : S32x526x526x3.ReduceWindows (![1, 15, 15, 1] : Fin 4 → Nat) ![1, 1, 1, 1] ![0, 0, 0, 0] ![0, 0, 0, 0] S32x512x512x3

variable [Facts₀]

class Facts : Prop extends Facts₀ where

variable [Facts]
-- ==== Proof.LibWindowMin.lean ====
/-
  Sliding-window minima on a meet-semilattice with a top element.

  `win f k n i` is the infimum of `f` over the `n` positions `i, i + k, …, i + k·(n − 1)`. Two windows that
  overlap or touch join into one window (`win_join`): this is the step of the doubling scheme that builds a
  window of 15 from windows of 1, 2, 4 and 8. A left fold of `⊓` over a list is the infimum over the list's
  entries (`foldl_inf`), which is how a window reduction written as a fold is read as an infimum.
-/
import Mathlib.Data.Finset.Lattice.Fold
import Mathlib.Data.Fintype.Basic
import Mathlib.Order.Lattice

namespace WindowMin

variable {α : Type*} [SemilatticeInf α] [OrderTop α]

/-- The infimum of `f` over the `n` positions from `i` at stride `k`. -/
def win (f : ℕ → α) (k n i : ℕ) : α := (Finset.range n).inf fun d => f (i + k * d)

/-- A window of one position is the value there. -/
theorem win_one (f : ℕ → α) (k i : ℕ) : win f k 1 i = f i := by
  unfold win
  rw [Finset.range_one, Finset.inf_singleton, Nat.mul_zero, Nat.add_zero]

/-- A window of `a` positions from `i` and a window of `b` positions from `i + k·s` that overlap or touch
    (`s ≤ a ≤ s + b`) have as their meet the window of `s + b` positions from `i`. -/
theorem win_join (f : ℕ → α) (k i s a b : ℕ) (h1 : s ≤ a) (h2 : a ≤ s + b) :
    win f k a i ⊓ win f k b (i + k * s) = win f k (s + b) i := by
  unfold win
  have e : ((Finset.range b).inf fun d => f (i + k * s + k * d))
      = ((Finset.range b).image (s + ·)).inf fun d => f (i + k * d) := by
    rw [Finset.inf_image]
    refine Finset.inf_congr rfl fun d _ => ?_
    show f (i + k * s + k * d) = f (i + k * (s + d))
    rw [Nat.mul_add, Nat.add_assoc]
  rw [e, ← Finset.inf_union]
  congr 1
  ext d
  simp only [Finset.mem_union, Finset.mem_range, Finset.mem_image]
  constructor
  · rintro (h | ⟨j, hj, rfl⟩) <;> omega
  · intro h
    by_cases hd : d < a
    · exact Or.inl hd
    · exact Or.inr ⟨d - s, by omega, by omega⟩

/-- A left fold of `⊓` over a list, from `a`, is `a` met with the infimum over the list's entries. -/
theorem foldl_inf {β : Type*} [DecidableEq β] (g : β → α) (l : List β) (a : α) :
    l.foldl (fun r n => r ⊓ g n) a = a ⊓ l.toFinset.inf g := by
  induction l generalizing a with
  | nil => simp
  | cons x l ih => rw [List.foldl_cons, ih, List.toFinset_cons, Finset.inf_insert, inf_assoc]

end WindowMin
-- ==== Proof.Reads.lean ====
/-
  Rank-2 arrays of extended reals read through functions of two natural numbers.

  `Reads v φ` says that the array `v` of shape [A, B] holds `φ r l` at row `r` and lane `l`. A unit-stride slice reads
  the shifted function, the pointwise minimum of two arrays reads the pointwise minimum, and the doubling step of a
  sliding minimum (the minimum of an array of window minima with its own shift, along the rows at stride 1 or along
  the lanes at a stride `k`) reads the minimum over the joined window. `ext2` extends an array by `⊤` to all pairs
  of naturals, so that windows are stated over plain natural positions.
-/
import Idealize.ShloMosaic.Lib.ValueIdx
import Idealize.ShloMosaic.Lib.Pipeline.Value
import proofs.«140625_j9371618640650_2_alg».proof.Proof.LibWindowMin

noncomputable section

namespace MinPool

open Idealize.ShloMosaic Idealize.ShloMosaic.ValueIdx WindowMin

/-- The array `v` holds `φ r l` at row `r`, lane `l`. -/
def Reads {A B : ℕ} (v : (⟨2, ![A, B]⟩ : Shape).Idx → EReal) (φ : ℕ → ℕ → EReal) : Prop :=
  ∀ (r : Fin A) (l : Fin B), v (ix2 r l) = φ r.val l.val

/-- An [A, B] array extended by `⊤` to all pairs of naturals. -/
def ext2 {A B : ℕ} (S : (⟨2, ![A, B]⟩ : Shape).Idx → EReal) (r l : ℕ) : EReal :=
  if h : r < A ∧ l < B then S (ix2 ⟨r, h.1⟩ ⟨l, h.2⟩) else ⊤

theorem ext2_of_lt {A B : ℕ} (S : (⟨2, ![A, B]⟩ : Shape).Idx → EReal) (r : Fin A) (l : Fin B) :
    ext2 S r.val l.val = S (ix2 r l) := by
  unfold ext2
  rw [dif_pos ⟨r.isLt, l.isLt⟩]

/-- Every array reads its own extension. -/
theorem reads_ext2 {A B : ℕ} (S : (⟨2, ![A, B]⟩ : Shape).Idx → EReal) : Reads S (ext2 S) :=
  fun r l => (ext2_of_lt S r l).symm

theorem Reads.congr {A B : ℕ} {v : (⟨2, ![A, B]⟩ : Shape).Idx → EReal} {φ ψ : ℕ → ℕ → EReal} (h : Reads v φ)
    (e : ∀ r l, r < A → l < B → φ r l = ψ r l) : Reads v ψ :=
  fun r l => (h r l).trans (e r.val l.val r.isLt l.isLt)

/-- A unit-stride slice at offsets `(o, p)` reads the function shifted by `(o, p)`. -/
theorem Reads.slice {A B A' B' : ℕ} {v : (⟨2, ![A, B]⟩ : Shape).Idx → EReal} {φ : ℕ → ℕ → EReal} (h : Reads v φ)
    (o p : ℕ) (hs : (⟨2, ![A, B]⟩ : Shape).Slices ![o, p] ⟨2, ![A', B']⟩) :
    Reads (extractStridedSlice ⟨2, ![A', B']⟩ ![o, p] v hs) (fun r l => φ (o + r) (p + l)) := by
  intro r l
  have hA : o + A' ≤ A := hs.2 ⟨0, Nat.zero_lt_two⟩
  have hB : p + B' ≤ B := hs.2 ⟨1, Nat.one_lt_two⟩
  have hr := r.isLt
  have hl := l.isLt
  rw [extractStridedSlice_apply ![o, p] v hs (ix2 r l) (ix2 ⟨o + r.val, by omega⟩ ⟨p + l.val, by omega⟩)
    (fun d => match d with | ⟨0, _⟩ => rfl | ⟨1, _⟩ => rfl)]
  exact h _ _

/-- The pointwise minimum of two arrays reads the pointwise minimum. -/
theorem Reads.min {A B : ℕ} {u v : FVec Ideal ⟨2, ![A, B]⟩ .f32} {φ ψ : ℕ → ℕ → EReal} (hu : Reads u φ) (hv : Reads v ψ) :
    Reads (minimumf u v) (fun r l => φ r l ⊓ ψ r l) := by
  intro r l
  rw [minimumf_apply, hu r l, hv r l]

/-- The doubling step along the rows: an array of minima over windows of `a` rows, met with itself `s ≤ a` rows
    further down, holds the minima over windows of `s + a` rows. -/
theorem Reads.join_rows {A B A' : ℕ} {v : FVec Ideal ⟨2, ![A, B]⟩ .f32} {g : ℕ → ℕ → EReal} {a : ℕ}
    (h : Reads v (fun r l => win (fun r' => g r' l) 1 a r)) (s : ℕ) (hsa : s ≤ a)
    (h0 : (⟨2, ![A, B]⟩ : Shape).Slices ![0, 0] ⟨2, ![A', B]⟩) (hs : (⟨2, ![A, B]⟩ : Shape).Slices ![s, 0] ⟨2, ![A', B]⟩) :
    Reads (minimumf (extractStridedSlice ⟨2, ![A', B]⟩ ![0, 0] v h0) (extractStridedSlice ⟨2, ![A', B]⟩ ![s, 0] v hs))
      (fun r l => win (fun r' => g r' l) 1 (s + a) r) := by
  refine ((h.slice 0 0 h0).min (h.slice s 0 hs)).congr fun r l _ _ => ?_
  show win (fun r' => g r' (0 + l)) 1 a (0 + r) ⊓ win (fun r' => g r' (0 + l)) 1 a (s + r) = _
  rw [Nat.zero_add, Nat.zero_add, Nat.add_comm s r]
  have e := win_join (fun r' => g r' l) 1 r s a a hsa (by omega)
  rw [Nat.one_mul] at e
  exact e

/-- The doubling step along the lanes at stride `k`: an array of minima over windows of `a` lane positions at stride
    `k`, met with itself `k · s` lanes further on (`s ≤ a`), holds the minima over windows of `s + a` positions. -/
theorem Reads.join_lanes {A B B' : ℕ} {v : FVec Ideal ⟨2, ![A, B]⟩ .f32} {g : ℕ → ℕ → EReal} {k a : ℕ}
    (h : Reads v (fun r l => win (fun l' => g r l') k a l)) (s o : ℕ) (ho : o = k * s) (hsa : s ≤ a)
    (h0 : (⟨2, ![A, B]⟩ : Shape).Slices ![0, 0] ⟨2, ![A, B']⟩) (hs : (⟨2, ![A, B]⟩ : Shape).Slices ![0, o] ⟨2, ![A, B']⟩) :
    Reads (minimumf (extractStridedSlice ⟨2, ![A, B']⟩ ![0, 0] v h0) (extractStridedSlice ⟨2, ![A, B']⟩ ![0, o] v hs))
      (fun r l => win (fun l' => g r l') k (s + a) l) := by
  refine ((h.slice 0 0 h0).min (h.slice 0 o hs)).congr fun r l _ _ => ?_
  show win (fun l' => g (0 + r) l') k a (0 + l) ⊓ win (fun l' => g (0 + r) l') k a (o + l) = _
  rw [Nat.zero_add, Nat.zero_add, Nat.add_comm o l, ho]
  exact win_join (fun l' => g r l') k l s a a hsa (by omega)

/-- The minimum over a window of 15 rows and 15 lane positions at stride `k` of a function of (row, lane). -/
def pool (g : ℕ → ℕ → EReal) (k h l : ℕ) : EReal :=
  win (fun l' => win (fun r' => g r' l') 1 15 h) k 15 l

end MinPool

end
-- ==== Proof.Spec.lean ====
/-
  The result as one function of the [32, 512, 1536] view of the image batch.

  With the width and the three channels merged into 1536 lanes, a pixel step is three lanes. `padNat` is the zero
  padding of a 512-row, 1536-lane image by 7 rows and 21 lanes (7 pixels) on every side, as a function of
  (row, lane) on the naturals; `sliceNat` is one image of the batch as such a function; `poolArr` is, per image, the
  minimum over 15 rows and 15 pixels of the padded image.
-/
import proofs.«140625_j9371618640650_2_alg».proof.Proof.Reads

noncomputable section

namespace MinPool

open Idealize.ShloMosaic Idealize.ShloMosaic.ValueIdx WindowMin

/-- A function of (row, lane) moved down 7 rows and right 21 lanes, with 0 around it: the zero padding of a
    512-row, 1536-lane image by 7 rows and 21 lanes on every side. -/
def padNat (X : ℕ → ℕ → EReal) (r l : ℕ) : EReal :=
  if 7 ≤ r ∧ r < 519 ∧ 21 ≤ l ∧ l < 1557 then X (r - 7) (l - 21) else 0

/-- Image `b` of a [32, 512, 1536] array as a function of (row, lane); `⊤` outside the array. -/
def sliceNat (Y : (⟨3, ![32, 512, 1536]⟩ : Shape).Idx → EReal) (b h l : ℕ) : EReal :=
  if hh : b < 32 ∧ h < 512 ∧ l < 1536 then Y (ix3 (⟨b, hh.1⟩ : Fin 32) (⟨h, hh.2.1⟩ : Fin 512) (⟨l, hh.2.2⟩ : Fin 1536)) else ⊤

/-- Per image, the minimum over 15 rows and 15 pixels (of three lanes each) of the zero-padded image. -/
def poolArr (Y : (⟨3, ![32, 512, 1536]⟩ : Shape).Idx → EReal) : (⟨3, ![32, 512, 1536]⟩ : Shape).Idx → EReal :=
  fun i => pool (padNat (sliceNat Y (i 0).val)) 3 (i 1).val (i 2).val

theorem poolArr_apply (Y : (⟨3, ![32, 512, 1536]⟩ : Shape).Idx → EReal) (i : (⟨3, ![32, 512, 1536]⟩ : Shape).Idx) (b h l : ℕ)
    (hb : (i 0).val = b) (hh : (i 1).val = h) (hl : (i 2).val = l) :
    poolArr Y i = pool (padNat (sliceNat Y b)) 3 h l := by
  subst hb hh hl; rfl

/-- The window minimum spelt out: over 15 lane positions at stride `k`, and at each over 15 rows. -/
theorem pool_eq (g : ℕ → ℕ → EReal) (k h l : ℕ) :
    pool g k h l = (Finset.range 15).inf fun dw => (Finset.range 15).inf fun dh => g (h + dh) (l + k * dw) := by
  unfold pool win
  refine Finset.inf_congr rfl fun dw _ => Finset.inf_congr rfl fun dh _ => ?_
  rw [Nat.one_mul]

end MinPool

end
-- ==== Proof.Scratch.lean ====
/-
  The padded image the kernel body builds in its scratch buffer.

  The body first fills the [526, 1578] scratch with zeros and then stores the point's [1, 512, 1536] block at rows 7 … 518,
  lanes 21 … 1556. Read at row `r`, lane `l` the scratch is therefore the block's entry (r − 7, l − 21) inside that
  rectangle and 0 in the border of 7 rows and 21 lanes (7 pixels of 3 channels) around it: `padNat` of the block. A load
  of a rectangle of the scratch reads the same function shifted by the rectangle's offsets.
-/
import proofs.«140625_j9371618640650_2_alg».proof.Proof.Gen.KernelIdeal.Skeleton
import proofs.«140625_j9371618640650_2_alg».proof.Proof.Spec
import Idealize.ShloMosaic.Lib.Pipeline.Value
import Idealize.ShloMosaic.PureOps.Ideal.Laws

noncomputable section

namespace Cert.KernelIdeal.Hand

open Idealize.ShloMosaic Idealize.ShloMosaic.ValueIdx MinPool Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- A [1, 512, 1536] block as a function of (row, lane); `⊤` outside the block. -/
def blockNat (x0 : S1x512x1536.Idx → EReal) (h l : ℕ) : EReal :=
  if hh : h < 512 ∧ l < 1536 then x0 (ix3 (0 : Fin 1) ⟨h, hh.1⟩ ⟨l, hh.2⟩) else ⊤

/-- The scratch after the body's two stores: the block over the zeros. -/
def scratchOf (x0 : Vec Ideal S1x512x1536 .f32) : S526x1578.Idx → EReal :=
  View.canon (Val := Elt Ideal)
    ([⟨Rect.unit (s := S526x1578) ![7, 21] S512x1536.size inb_S526x1578_S512x1536_7_21, k0_pay2 x0⟩,
      ⟨Rect.unit (s := S526x1578) ![0, 0] S526x1578.size inb_S526x1578_S526x1578_0_0, k0_pay1 (F := Ideal)⟩] :
      List (View.Piece (Elt Ideal) S526x1578 .f32))

/-- The first store's payload is zero everywhere. -/
theorem pay1_apply (j : S526x1578.Idx) : k0_pay1 (F := Ideal) j = 0 := by
  show shapeCast S526x1578 (broadcast S526x1578 (Scalar.ofBits (F := Ideal) .f32 0x00000000#32)) shapeCasts_S526x1578_S526x1578 j = 0
  rw [shapeCast_self]
  exact Ideal.ofBits_zero_f32

/-- The second store's payload is the block with its unit axis dropped. -/
theorem pay2_apply (x0 : Vec Ideal S1x512x1536 .f32) (h : Fin 512) (l : Fin 1536) :
    k0_pay2 x0 (ix2 h l) = x0 (ix3 (0 : Fin 1) h l) := by
  show shapeCast S512x1536 (shapeCast S512x1536 x0 shapeCasts_S1x512x1536_S512x1536) shapeCasts_S512x1536_S512x1536 (ix2 h l) = _
  rw [shapeCast_self]
  refine (shapeCast_dropUnit_apply ![512, 1536] x0 shapeCasts_S1x512x1536_S512x1536 (ix2 h l)).trans ?_
  refine congrArg x0 (funext fun a => ?_)
  match a with
  | ⟨0, _⟩ => rfl
  | ⟨1, _⟩ => rfl
  | ⟨2, _⟩ => rfl

/-- The scratch is the zero-padded block. -/
theorem scratch_reads (x0 : Vec Ideal S1x512x1536 .f32) : Reads (scratchOf x0) (padNat (blockNat x0)) := by
  intro r l
  have hr := r.isLt
  have hl := l.isLt
  unfold scratchOf padNat
  by_cases hin : 7 ≤ r.val ∧ r.val < 519 ∧ 21 ≤ l.val ∧ l.val < 1557
  · rw [if_pos hin]
    have e : (ix2 r l : S526x1578.Idx)
        = (Rect.unit (s := S526x1578) ![7, 21] S512x1536.size inb_S526x1578_S512x1536_7_21).emb
            (ix2 (⟨r.val - 7, by omega⟩ : Fin 512) (⟨l.val - 21, by omega⟩ : Fin 1536)) := by
      funext a
      apply Fin.ext
      match a with
      | ⟨0, _⟩ => show r.val = 7 + 1 * (r.val - 7); omega
      | ⟨1, _⟩ => show l.val = 21 + 1 * (l.val - 21); omega
    rw [e, View.canon_cons_emb, pay2_apply]
    unfold blockNat
    rw [dif_pos ⟨by omega, by omega⟩]
  · rw [if_neg hin, View.canon_cons_of_not_mem _ _ (by
      rw [Rect.mem_set_unit]
      intro hm
      have h0 := hm ⟨0, Nat.zero_lt_two⟩
      have h1 := hm ⟨1, Nat.one_lt_two⟩
      have h0' : 7 ≤ r.val ∧ r.val < 7 + 512 := h0
      have h1' : 21 ≤ l.val ∧ l.val < 21 + 1536 := h1
      omega), View.canon_unit_zero hz2]
    exact pay1_apply _

/-- A load of the [A', B'] rectangle at offsets (o, p) of an array reads the array's function shifted by (o, p). -/
theorem reads_ld {A B A' B' : ℕ} {S : (⟨2, ![A, B]⟩ : Shape).Idx → EReal} {φ : ℕ → ℕ → EReal} (h : Reads S φ) (o p : ℕ)
    (inb : ∀ a, (![o, p] : Fin 2 → ℕ) a + (![A', B'] : Fin 2 → ℕ) a ≤ (⟨2, ![A, B]⟩ : Shape).size a) :
    Reads (A := A') (B := B') (fun j => S ((Rect.unit (s := ⟨2, ![A, B]⟩) ![o, p] ![A', B'] inb).toLoadRect.idx j))
      (fun r l => φ (o + r) (p + l)) := by
  intro r l
  have hA : o + A' ≤ A := inb ⟨0, Nat.zero_lt_two⟩
  have hB : p + B' ≤ B := inb ⟨1, Nat.one_lt_two⟩
  have hr := r.isLt
  have hl := l.isLt
  have e : (Rect.unit (s := ⟨2, ![A, B]⟩) ![o, p] ![A', B'] inb).toLoadRect.idx (ix2 r l)
      = ix2 (⟨o + r.val, by omega⟩ : Fin A) (⟨p + l.val, by omega⟩ : Fin B) := by
    funext a
    apply Fin.ext
    match a with
    | ⟨0, _⟩ => show o + 1 * r.val = o + r.val; omega
    | ⟨1, _⟩ => show p + 1 * l.val = p + l.val; omega
  show S _ = _
  rw [e]
  exact h _ _

end Cert.KernelIdeal.Hand

end
-- ==== Proof.Body.lean ====
/-
  The arithmetic of the kernel body at the ideal instance.

  From two loads of the scratch, rows 0 … 524 and rows 1 … 525, the body forms the minimum over windows of 2, 4, 8 and
  then 15 rows by doubling (shifts 1, 2, 4, 7), and from that, along the lanes at the pixel stride 3, the minimum over
  windows of 2, 4, 8 and then 15 pixels (shifts 3, 6, 12, 21 lanes). So the stored block holds, at row `h` and lane `l`,
  the minimum of the scratch over rows h … h + 14 and lanes l, l + 3, …, l + 42: `pool g 3 h l` of the function `g` the
  scratch reads.
-/
import proofs.«140625_j9371618640650_2_alg».proof.Proof.Gen.KernelIdeal.Skeleton
import proofs.«140625_j9371618640650_2_alg».proof.Proof.Reads
import Idealize.ShloMosaic.Lib.Pipeline.Value

noncomputable section

namespace Cert.KernelIdeal.Hand

open Idealize.ShloMosaic Idealize.ShloMosaic.ValueIdx MinPool WindowMin Cert.KernelIdeal Cert.KernelIdeal.Gen

/-- The stored block, from loads that read `g` and `g` one row down, is the 15 × 15 window minimum of `g`. -/
theorem pay3_apply (g : ℕ → ℕ → EReal) (v9 v10 : Vec Ideal S525x1578 .f32)
    (h9 : Reads v9 g) (h10 : Reads v10 (fun r l => g (1 + r) l)) (h : Fin 512) (l : Fin 1536) :
    k0_pay3 v9 v10 (ix3 (0 : Fin 1) h l) = pool g 3 h.val l.val := by
  unfold k0_pay3
  -- along the rows
  have e11 := Reads.congr (ψ := fun r l => win (fun r' => g r' l) 1 2 r) (h9.min h10) fun r l _ _ => by
    show g r l ⊓ g (1 + r) l = win (fun r' => g r' l) 1 2 r
    have e := win_join (fun r' => g r' l) 1 r 1 1 1 le_rfl (by omega)
    rw [win_one, win_one, Nat.one_mul, Nat.add_comm r 1] at e
    exact e
  have e14 : Reads _ (fun r l => win (fun r' => g r' l) 1 4 r) :=
    e11.join_rows 2 le_rfl slices_S525x1578_o0_0_S523x1578 slices_S525x1578_o2_0_S523x1578
  have e17 : Reads _ (fun r l => win (fun r' => g r' l) 1 8 r) :=
    e14.join_rows 4 le_rfl slices_S523x1578_o0_0_S519x1578 slices_S523x1578_o4_0_S519x1578
  have e20 : Reads _ (fun r l => win (fun r' => g r' l) 1 15 r) :=
    e17.join_rows 7 (by omega) slices_S519x1578_o0_0_S512x1578 slices_S519x1578_o7_0_S512x1578
  -- along the lanes, three lanes to a pixel
  have e20' : Reads _ (fun r l => win (fun l' => win (fun r' => g r' l') 1 15 r) 3 1 l) :=
    Reads.congr (ψ := fun r l => win (fun l' => win (fun r' => g r' l') 1 15 r) 3 1 l) e20
      fun r l _ _ => (win_one (fun l' => win (fun r' => g r' l') 1 15 r) 3 l).symm
  have e23 : Reads _ (fun r l => win (fun l' => win (fun r' => g r' l') 1 15 r) 3 2 l) :=
    e20'.join_lanes 1 3 rfl le_rfl slices_S512x1578_o0_0_S512x1575 slices_S512x1578_o0_3_S512x1575
  have e26 : Reads _ (fun r l => win (fun l' => win (fun r' => g r' l') 1 15 r) 3 4 l) :=
    e23.join_lanes 2 6 rfl le_rfl slices_S512x1575_o0_0_S512x1569 slices_S512x1575_o0_6_S512x1569
  have e29 : Reads _ (fun r l => win (fun l' => win (fun r' => g r' l') 1 15 r) 3 8 l) :=
    e26.join_lanes 4 12 rfl le_rfl slices_S512x1569_o0_0_S512x1557 slices_S512x1569_o0_12_S512x1557
  have e32 : Reads _ (fun r l => win (fun l' => win (fun r' => g r' l') 1 15 r) 3 15 l) :=
    e29.join_lanes 7 21 rfl (by omega) slices_S512x1557_o0_0_S512x1536 slices_S512x1557_o0_21_S512x1536
  -- the stored value is that array under a leading unit axis
  refine (shapeCast_addUnit_apply ![512, 1536] _ shapeCasts_S512x1536_S1x512x1536 (ix3 (0 : Fin 1) h l)).trans ?_
  have e : (fun a : Fin 2 => (ix3 (0 : Fin 1) h l : S1x512x1536.Idx) a.succ) = (ix2 h l : S512x1536.Idx) :=
    funext fun a => match a with | ⟨0, _⟩ => rfl | ⟨1, _⟩ => rfl
  rw [e]
  exact e32 h l

end Cert.KernelIdeal.Hand

end
-- ==== Proof.Block.lean ====
/-
  What one grid point leaves in the output's staging buffer.

  The body's one store into the output block is the arithmetic of two loads of the scratch (rows 0 … 524 and rows
  1 … 525), and the scratch at that moment is the zero-padded input block. So at row `h`, lane `l` the output block
  holds the minimum of the zero-padded input block over rows h … h + 14 and lanes l, l + 3, …, l + 42.
-/
import proofs.«140625_j9371618640650_2_alg».proof.Proof.Gen.KernelIdeal.Frame
import proofs.«140625_j9371618640650_2_alg».proof.Proof.Scratch
import proofs.«140625_j9371618640650_2_alg».proof.Proof.Body
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL.Sem MinPool Cert.KernelIdeal Cert.KernelIdeal.Gen

/-- The output block is the body's arithmetic of the two loads of the scratch as the two stores left it. -/
theorem out_eq (c : Dev nD) (i : grid0.Coords) (arg1 : Memref sig .tc .vmem S1x512x1536 .f32) (harg1 : arg1.IsWhole)
    (arg2 : Memref sig .tc .vmem S1x512x1536 .f32) (harg2 : arg2.IsWhole) (arg3 : Memref sig .tc .vmem S526x1578 .f32)
    (harg3 : arg3.IsWhole) (x0 : Vec Ideal S1x512x1536 .f32) :
    out0_A_1 (F := Ideal) c i arg1 harg1 arg2 harg2 arg3 harg3 x0
      = k0_pay3 (F := Ideal)
          (fun j => scratchOf x0 ((Rect.unit (s := S526x1578) ![0, 0] S525x1578.size inb_S526x1578_S525x1578_0_0).toLoadRect.idx j))
          (fun j => scratchOf x0 ((Rect.unit (s := S526x1578) ![1, 0] S525x1578.size inb_S526x1578_S525x1578_1_0).toLoadRect.idx j)) := by
  unfold out0_A_1
  rw [View.read_writes_eq_canon _ _ _ (cover0_A_1 c i arg1 harg1 arg2 harg2 arg3 harg3 x0)]
  unfold kernelRun0_A
  dsimp only
  sl_unfold_words
  rw [View.canon_unit_zero hz3]
  simp only [View.readCov_eq_canon', View.readAt_eq_ld, harg1.read_unread, View.ld_unit_zero (S := S1x512x1536) hz3]
  rfl

/-- The output block at row `h`, lane `l`: the 15 × 15 window minimum of the zero-padded input block. -/
theorem out_apply (c : Dev nD) (i : grid0.Coords) (arg1 : Memref sig .tc .vmem S1x512x1536 .f32) (harg1 : arg1.IsWhole)
    (arg2 : Memref sig .tc .vmem S1x512x1536 .f32) (harg2 : arg2.IsWhole) (arg3 : Memref sig .tc .vmem S526x1578 .f32)
    (harg3 : arg3.IsWhole) (x0 : Vec Ideal S1x512x1536 .f32) (h : Fin 512) (l : Fin 1536) :
    out0_A_1 (F := Ideal) c i arg1 harg1 arg2 harg2 arg3 harg3 x0 (ix3 (0 : Fin 1) h l)
      = pool (padNat (blockNat x0)) 3 h.val l.val := by
  rw [out_eq]
  refine pay3_apply (padNat (blockNat x0)) _ _ ?_ ?_ h l
  · exact (reads_ld (scratch_reads x0) 0 0 inb_S526x1578_S525x1578_0_0).congr fun r l _ _ => by
      rw [Nat.zero_add, Nat.zero_add]
  · exact (reads_ld (scratch_reads x0) 1 0 inb_S526x1578_S525x1578_1_0).congr fun r l _ _ => by
      rw [Nat.zero_add]

end Cert.KernelIdeal.Hand

end
-- ==== Proof.Region.lean ====
/-
  The array the kernel region leaves.

  Grid point `t` reads batch `t` of the region's [32, 512, 1536] input and writes back batch `t` of its output, so the
  output array ends holding, at (b, h, l), the minimum over rows h … h + 14 and lanes l, l + 3, …, l + 42 of the
  zero-padded batch `b` of the input: `poolArr` of the input array.
-/
import proofs.«140625_j9371618640650_2_alg».proof.Proof.Gen.KernelIdeal.Frame
import proofs.«140625_j9371618640650_2_alg».proof.Proof.Block
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem MinPool Cert.KernelIdeal Cert.KernelIdeal.Gen
open Idealize.ShloMosaic.Pipeline (Dat)

variable (m : (ℓ : Loc nD τ sig) → Buf (Elt Ideal) ℓ) (ρ : Dev nD → PrngReg)

/-- A block whose entries are batch `b` of the array is, as a function of (row, lane), that batch. -/
theorem blockNat_eq_sliceNat (x0 : Vec Ideal S1x512x1536 .f32) (Y : S32x512x1536.Idx → EReal) (b : Fin 32)
    (hx : ∀ (h : Fin 512) (l : Fin 1536), x0 (ix3 (0 : Fin 1) h l) = Y (ix3 b h l)) :
    blockNat x0 = sliceNat Y b.val := by
  funext h l
  unfold blockNat sliceNat
  by_cases hh : h < 512 ∧ l < 1536
  · rw [dif_pos hh, dif_pos ⟨b.isLt, hh.1, hh.2⟩]
    exact hx ⟨h, hh.1⟩ ⟨l, hh.2⟩
  · rw [dif_neg hh, dif_neg (fun h3 => hh ⟨h3.2.1, h3.2.2⟩)]

/-- The printed index maps over the grid: both windows are at block (t, 0, 0) at point `t`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0) :=
  (by decide +kernel : ∀ t : Fin grid0.N, _)

theorem lt_32 (t : Fin cfg0.N) : t.val < 32 := by
  have h := t.isLt
  have hN : cfg0.N = 32 := N_0
  omega

/-- The input window's block at point `t` is batch `t` of the region's input array. -/
theorem iblk_apply (c : Dev nD) (t : Fin cfg0.N) (h : Fin 512) (l : Fin 1536) :
    (iblk m c 0 t : Vec Ideal S1x512x1536 .f32) (ix3 (0 : Fin 1) h l)
      = (V m c main_v0 : S32x512x1536.Idx → EReal) (ix3 (⟨t.val, lt_32 t⟩ : Fin 32) h l) := by
  obtain ⟨⟨e0, e1, e2⟩, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 512 + 1 * h.val = h.val; omega
  | ⟨2, _⟩ => show win0_0.index t (2 : Fin 3) * 1536 + 1 * l.val = l.val; omega

/-- What point `t` writes back is block `t` of `poolArr` of the region's input array. -/
theorem flushed_eq (c : Dev nD) (t : Fin cfg0.N) :
    (dats m 0 c).flushed 1 t = ((cfg0.win 1).blk t).view.read (Elt Ideal) (poolArr (V m c main_v0)) := by
  show (cfg0.win 1).cut (grid0.coords t) ((dats m 0 c).after 1 t) = _
  rw [after0_1]
  unfold outsAt0
  obtain ⟨-, e0, e1, e2⟩ := idx_facts t
  funext j
  obtain ⟨z, h, l, rfl⟩ : ∃ (z : Fin 1) (h : Fin 512) (l : Fin 1536), j = (ix3 z h l : S1x512x1536.Idx) :=
    ⟨j 0, j 1, j 2, eq_ix3 j⟩
  obtain rfl : z = 0 := Subsingleton.elim _ _
  show out0_A_1 (F := Ideal) c (grid0.coords t) (ms0_0 t) (hs0_0 t) (ms0_1 t) (hs0_1 t) scM0_0 (Memref.isWhole_whole _)
      (iblk m c 0 t) (ix3 (0 : Fin 1) h l)
    = poolArr (V m c main_v0) (((cfg0.win 1).blk t).view.emb (ix3 (0 : Fin 1) h l))
  refine (out_apply c (grid0.coords t) (ms0_0 t) (hs0_0 t) (ms0_1 t) (hs0_1 t) scM0_0 (Memref.isWhole_whole _)
    (iblk m c 0 t) h l).trans ?_
  refine Eq.trans ?_ (poolArr_apply (V m c main_v0) _ t.val h.val l.val ?_ ?_ ?_).symm
  · rw [blockNat_eq_sliceNat (iblk m c 0 t) (V m c main_v0) ⟨t.val, lt_32 t⟩ (iblk_apply m c t)]
  · show win0_1.index t (0 : Fin 3) * 1 + 1 * 0 = t.val; omega
  · show win0_1.index t (1 : Fin 3) * 512 + 1 * h.val = h.val; omega
  · show win0_1.index t (2 : Fin 3) * 1536 + 1 * l.val = l.val; omega

/-- An index of the output array is in point `t`'s block iff each coordinate is in the block's range on its axis. -/
theorem mem_blk (t : Fin cfg0.N) (i : S32x512x1536.Idx) :
    i ∈ ((cfg0.win 1).blk t).view.set ↔ ∀ a : Fin 3, win0_1.index t a * S1x512x1536.size a ≤ (i a).val
      ∧ (i a).val < win0_1.index t a * S1x512x1536.size a + S1x512x1536.size a := by
  show i ∈ ((View.whole main_v1).slice (win0_1.rect t)).set ↔ _
  rw [View.set_slice_whole, Rect.mem_set_unit]
  exact Iff.rfl

/-- Every index of the output array is in the block of the point of its batch. -/
theorem cover (i : S32x512x1536.Idx) :
    ∃ t : Fin cfg0.N, (cfg0.win 1).flush t = true ∧ i ∈ ((cfg0.win 1).blk t).view.set := by
  have h0 : (i 0).val < 32 := (i 0).isLt
  have h1 : (i 1).val < 512 := (i 1).isLt
  have h2 : (i 2).val < 1536 := (i 2).isLt
  have hN : cfg0.N = 32 := N_0
  have hlt : (i 0).val < cfg0.N := by omega
  refine ⟨⟨(i 0).val, hlt⟩, flush0_1 _, ?_⟩
  obtain ⟨-, e0', e1, e2⟩ := idx_facts ⟨(i 0).val, hlt⟩
  have e0 : win0_1.index ⟨(i 0).val, hlt⟩ (0 : Fin 3) = (i 0).val := e0'
  rw [mem_blk]
  intro a
  match a with
  | ⟨0, _⟩ =>
    show win0_1.index ⟨(i 0).val, _⟩ (0 : Fin 3) * 1 ≤ (i 0).val ∧ (i 0).val < win0_1.index ⟨(i 0).val, _⟩ (0 : Fin 3) * 1 + 1
    rw [e0]; omega
  | ⟨1, _⟩ =>
    show win0_1.index ⟨(i 0).val, _⟩ (1 : Fin 3) * 512 ≤ (i 1).val ∧ (i 1).val < win0_1.index ⟨(i 0).val, _⟩ (1 : Fin 3) * 512 + 512
    rw [e1]; omega
  | ⟨2, _⟩ =>
    show win0_1.index ⟨(i 0).val, _⟩ (2 : Fin 3) * 1536 ≤ (i 2).val ∧ (i 2).val < win0_1.index ⟨(i 0).val, _⟩ (2 : Fin 3) * 1536 + 1536
    rw [e2]; omega

/-- The output array after the region: `poolArr` of the input array as the region finds it. -/
theorem final (c : Dev nD) : (dats m 0 c).arrAt 1 cfg0.N = poolArr (V m c main_v0) :=
  (dats m 0 c).arrAt_eq_of_cover 1 (poolArr (V m c main_v0)) (fun t _ => flushed_eq m c t) cover

end Cert.KernelIdeal.Hand

end
-- ==== Proof.KernelRun.lean ====
/-
  The kernel program's run at the ideal instance, read back.

  Before the region the host views the [32, 512, 512, 3] argument as [32, 512, 1536] (width and channels merged into
  lanes); after it the host views the region's [32, 512, 1536] output back as [32, 512, 512, 3]. So the program's
  result is `poolArr` of the lane view of the argument, viewed back, and the argument is left as it was.
-/
import proofs.«140625_j9371618640650_2_alg».proof.Proof.Gen.KernelIdeal.Frame
import proofs.«140625_j9371618640650_2_alg».proof.Proof.Region
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem MinPool Cert.KernelIdeal Cert.KernelIdeal.Gen Idealize.ShloMosaic.StableHlo
open Idealize.ShloMosaic.Pipeline (Dat)

variable (m : (ℓ : Loc nD τ sig) → Buf (Elt Ideal) ℓ) (ρ : Dev nD → PrngReg)

/-- The region's input array is the lane view of the argument. -/
theorem V_main_v0 (c : Dev nD) :
    (V m c main_v0 : S32x512x1536.Idx → EReal)
      = shapeCast S32x512x1536 (m ((c : Thread nD τ).loc main_arg0)) shapeCasts_S32x512x512x3_S32x512x1536 := by
  show StableHlo.after hostOps0 (fun b => m (c, b)) (Proc.devRef .tc main_v0) = _
  after_results
  rfl

/-- The program's result is the region's output array viewed back as [32, 512, 512, 3]. -/
theorem tail_main_v2 (c : Dev nD) :
    (Pipeline.afterTail₀ cfgs (dats m) 0 (V0 m) [hostOps1] c main_v2 : S32x512x512x3.Idx → EReal)
      = shapeCast S32x512x512x3 ((dats m 0 c).arrAt 1 cfg0.N) shapeCasts_S32x512x1536_S32x512x512x3 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 1 cfg0.N :=
    Pipeline.withArrays_arr spec0 launch0.win.arr_inj c _ _ 1
  rw [e]
  rfl

/-- The run, read: the result at `poolArr` of the lane view of the argument, viewed back; the argument unchanged. -/
theorem run : θ_run defs (onTc (τ := τ) (main (F := Ideal))) ⟨m, fun _ => 0, ρ⟩ fun r => ∀ c : Dev nD,
      r.2.mem ((c.tc : Thread nD τ).loc main_v2)
        = shapeCast S32x512x512x3
            (poolArr (shapeCast S32x512x1536 (m ((c.tc : Thread nD τ).loc main_arg0)) shapeCasts_S32x512x512x3_S32x512x1536))
            shapeCasts_S32x512x1536_S32x512x512x3
      ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans
        ((tail_main_v2 m c).trans (by rw [final m c, V_main_v0 m c])),
      ((h c).2 main_arg0 (Pipeline.mem_restRefs_of main_arg0 (by decide) (by decide))).trans (W_main_arg0 m (dats m) c)⟩)
    (run_main m ρ)

end Cert.KernelIdeal.Hand

end
-- ==== Proof.LibReduceWindowMin.lean ====
/-
  A host window reduction by the minimum, at the ideal instance, as an infimum.

  `Host.reduceWindow` is a left fold of the reducing operation from the initial value over the window's positions, an
  operand element where the position is inside the operand and the initial value where it is padding. When the
  operation is the minimum of extended reals and the initial value is `+∞`, the fold is the infimum over the window's
  positions of those entries, which no longer depends on the order of the positions (the fold law is `WindowMin.foldl_inf`).
-/
import Idealize.ShloMosaic.PureOps.Ideal
import proofs.«140625_j9371618640650_2_alg».proof.Proof.LibWindowMin

noncomputable section

namespace MinPool

open Idealize.ShloMosaic

/-- A window reduction by `minimumf` from `⊤` reads, at `j`, the infimum over the window's positions. -/
theorem reduceWindow_min_apply {s t u : Shape} (window strides lo hi : Fin s.rank → Nat) (x : s.Idx → EReal)
    (init : u.Idx → EReal) (h : s.ReduceWindows window strides lo hi t) (hu : 0 < u.numel)
    (hinit : init (Shape.Idx.first hu) = ⊤) (j : t.Idx) :
    Host.reduceWindow (α := EReal) (FloatOps.minimumf (F := Ideal) (φ := .f32)) window strides lo hi x init h hu j
      = Finset.univ.inf fun n : Fin (⟨s.rank, window⟩ : Shape).numel =>
          if hin : ∀ a, lo a ≤ (j (a.cast h.1.symm)).val * strides a + ((⟨s.rank, window⟩ : Shape).rowMajor.symm n a).val
              ∧ (j (a.cast h.1.symm)).val * strides a + ((⟨s.rank, window⟩ : Shape).rowMajor.symm n a).val - lo a < s.size a
          then x (fun a => ⟨(j (a.cast h.1.symm)).val * strides a + ((⟨s.rank, window⟩ : Shape).rowMajor.symm n a).val - lo a, (hin a).2⟩)
          else ⊤ := by
  unfold Host.reduceWindow
  dsimp only
  rw [hinit]
  refine (WindowMin.foldl_inf _ _ _).trans ?_
  rw [List.toFinset_finRange, top_inf_eq]

/-- When every position of the window at `j` lies inside the operand (no padding is met), the reduction reads the
    infimum of the operand's entries over the window. -/
theorem reduceWindow_min_apply_inside {s t u : Shape} (window strides lo hi : Fin s.rank → Nat) (x : s.Idx → EReal)
    (init : u.Idx → EReal) (h : s.ReduceWindows window strides lo hi t) (hu : 0 < u.numel)
    (hinit : init (Shape.Idx.first hu) = ⊤) (j : t.Idx)
    (hall : ∀ (n : Fin (⟨s.rank, window⟩ : Shape).numel) (a : Fin s.rank),
      lo a ≤ (j (a.cast h.1.symm)).val * strides a + ((⟨s.rank, window⟩ : Shape).rowMajor.symm n a).val
        ∧ (j (a.cast h.1.symm)).val * strides a + ((⟨s.rank, window⟩ : Shape).rowMajor.symm n a).val - lo a < s.size a) :
    Host.reduceWindow (α := EReal) (FloatOps.minimumf (F := Ideal) (φ := .f32)) window strides lo hi x init h hu j
      = Finset.univ.inf fun n : Fin (⟨s.rank, window⟩ : Shape).numel =>
          x (fun a => ⟨(j (a.cast h.1.symm)).val * strides a + ((⟨s.rank, window⟩ : Shape).rowMajor.symm n a).val - lo a,
            (hall n a).2⟩) := by
  rw [reduceWindow_min_apply window strides lo hi x init h hu hinit j]
  exact Finset.inf_congr rfl fun n _ => dif_pos (hall n)

end MinPool

end
-- ==== Proof.Reference.lean ====
/-
  The reference at the ideal instance is `poolArr` of the [32, 512, 1536] view of its argument, viewed back as
  [32, 512, 512, 3].

  The reference pads every image by 7 rows and 7 pixels of zeros and takes, at each pixel and channel, the minimum
  over the 15 × 15 pixel window from `+∞`. In the view that merges width and channels into lanes, pixel `q`,
  channel `c` is lane 3q + c, the padded image is `padNat` of the image, and a step of one pixel is three lanes: so
  the window's 225 positions are the 15 rows and the 15 lane positions at stride 3 of `pool`, and the fold over
  them from `+∞` is the same infimum.
-/
import proofs.«140625_j9371618640650_2_alg».proof.Proof.Gen.ReferenceIdeal.Read
import proofs.«140625_j9371618640650_2_alg».proof.Proof.Spec
import proofs.«140625_j9371618640650_2_alg».proof.Proof.LibReduceWindowMin
import Idealize.ShloMosaic.Lib.KernelVsHost
import Idealize.ShloMosaic.Lib.Pipeline.Value
import Idealize.ShloMosaic.PureOps.Ideal.Laws

noncomputable section

namespace Cert.ReferenceIdeal.Hand

open Idealize.ShloMosaic Idealize.ShloMosaic.ValueIdx MinPool WindowMin Cert.ReferenceIdeal Cert.ReferenceIdeal.Gen

/-- The [32, 512, 1536] view of the argument at (b, h, 3w + c) is the argument at (b, h, w, c). -/
theorem view_apply (x : S32x512x512x3.Idx → EReal) (hc : S32x512x512x3.ShapeCasts ⟨3, ![32, 512, 1536]⟩)
    (b : Fin 32) (h w : Fin 512) (c : Fin 3) (l : Fin 1536) (hl : l.val = 3 * w.val + c.val) :
    shapeCast ⟨3, ![32, 512, 1536]⟩ x hc (ix3 b h l) = x (ix4 b h w c) := by
  refine shapeCast_apply x hc (ix3 b h l) (ix4 b h w c) ?_
  rw [Shape.rowMajor_val_three, Shape.rowMajor_val_four]
  show ((b.val * 512 + h.val) * 512 + w.val) * 3 + c.val = (b.val * 512 + h.val) * 1536 + l.val
  omega

/-- The padding value is zero. -/
theorem pad_value (i : S_.Idx) : Read.val_main_call0_v0 (F := Ideal) i = 0 := by
  show Ideal.ofBits .f32 0x00000000#32 = 0
  exact Ideal.ofBits_zero_f32

/-- The padded batch at (b, r, q, c) is the zero-padded image `b` at row `r`, lane 3q + c. -/
theorem pad_apply (x : S32x512x512x3.Idx → EReal) (hc : S32x512x512x3.ShapeCasts ⟨3, ![32, 512, 1536]⟩)
    (b : Fin 32) (r q : Fin 526) (c : Fin 3) :
    Read.val_main_v0 (F := Ideal) x (ix4 b r q c)
      = padNat (sliceNat (shapeCast ⟨3, ![32, 512, 1536]⟩ x hc) b.val) r.val (3 * q.val + c.val) := by
  have hb := b.isLt
  have hr := r.isLt
  have hq := q.isLt
  have hcc := c.isLt
  unfold Read.val_main_v0 padNat
  by_cases hin : 7 ≤ r.val ∧ r.val < 519 ∧ 7 ≤ q.val ∧ q.val < 519
  · rw [if_pos (by omega)]
    rw [pad_apply_of_inside ![0, 7, 7, 0] ![0, 7, 7, 0] ![0, 0, 0, 0] x _ pads_S32x512x512x3_S32x526x526x3_000_770_770_000 h_S_
      (ix4 b r q c) (ix4 b (⟨r.val - 7, by omega⟩ : Fin 512) (⟨q.val - 7, by omega⟩ : Fin 512) c)
      (fun a => match a with
        | ⟨0, _⟩ => by show b.val = 0 + b.val * (0 + 1); omega
        | ⟨1, _⟩ => by show r.val = 7 + (r.val - 7) * (0 + 1); omega
        | ⟨2, _⟩ => by show q.val = 7 + (q.val - 7) * (0 + 1); omega
        | ⟨3, _⟩ => by show c.val = 0 + c.val * (0 + 1); omega)]
    unfold sliceNat
    rw [dif_pos ⟨hb, by omega, by omega⟩]
    exact (view_apply x hc b _ _ c _ (by show 3 * q.val + c.val - 21 = 3 * (q.val - 7) + c.val; omega)).symm
  · rw [if_neg (by omega)]
    by_cases hr' : 7 ≤ r.val ∧ r.val < 519
    · rw [pad_apply_of_not_inside ![0, 7, 7, 0] ![0, 7, 7, 0] ![0, 0, 0, 0] x _ pads_S32x512x512x3_S32x526x526x3_000_770_770_000 h_S_
        (ix4 b r q c) ⟨2, by decide⟩ (by
          show ¬(7 ≤ q.val ∧ (q.val - 7) % 1 = 0 ∧ (q.val - 7) / 1 < 512)
          rw [Nat.div_one]; omega)]
      exact pad_value _
    · rw [pad_apply_of_not_inside ![0, 7, 7, 0] ![0, 7, 7, 0] ![0, 0, 0, 0] x _ pads_S32x512x512x3_S32x526x526x3_000_770_770_000 h_S_
        (ix4 b r q c) ⟨1, by decide⟩ (by
          show ¬(7 ≤ r.val ∧ (r.val - 7) % 1 = 0 ∧ (r.val - 7) / 1 < 512)
          rw [Nat.div_one]; omega)]
      exact pad_value _

/-- The reduction's initial value is `+∞`. -/
theorem init_value : Read.val_main_cst_0 (F := Ideal) (Shape.Idx.first h_S_) = ⊤ := by
  show Ideal.ofBits .f32 0x7F800000#32 = ⊤
  simp [Ideal.ofBits, Ideal.ieee]

/-- One position of the window at (b, h, w, c): position `d` of the 1 × 15 × 15 × 1 window reads the padded image
    `b` at row h + d₁ and lane 3 (w + d₂) + c. -/
theorem window_entry (x : S32x512x512x3.Idx → EReal) (hc : S32x512x512x3.ShapeCasts ⟨3, ![32, 512, 1536]⟩)
    (b : Fin 32) (h w : Fin 512) (c : Fin 3) (d : (⟨4, ![1, 15, 15, 1]⟩ : Shape).Idx)
    (hd : ∀ a : Fin 4, (![0, 0, 0, 0] : Fin 4 → ℕ) a ≤ ((ix4 b h w c : S32x512x512x3.Idx) (a.cast rfl)).val * (![1, 1, 1, 1] : Fin 4 → ℕ) a
          + (d a).val
        ∧ ((ix4 b h w c : S32x512x512x3.Idx) (a.cast rfl)).val * (![1, 1, 1, 1] : Fin 4 → ℕ) a
          + (d a).val - (![0, 0, 0, 0] : Fin 4 → ℕ) a < S32x526x526x3.size a) :
    Read.val_main_v0 (F := Ideal) x (fun a => ⟨((ix4 b h w c : S32x512x512x3.Idx) (a.cast rfl)).val * (![1, 1, 1, 1] : Fin 4 → ℕ) a
          + (d a).val - (![0, 0, 0, 0] : Fin 4 → ℕ) a, (hd a).2⟩)
      = padNat (sliceNat (shapeCast ⟨3, ![32, 512, 1536]⟩ x hc) b.val) (h.val + (d 1).val) (3 * w.val + c.val + 3 * (d 2).val) := by
  have hb := b.isLt
  have hh := h.isLt
  have hw := w.isLt
  have hcc := c.isLt
  have d0 : (d 0).val < 1 := (d 0).isLt
  have d1 : (d 1).val < 15 := (d 1).isLt
  have d2 : (d 2).val < 15 := (d 2).isLt
  have d3 : (d 3).val < 1 := (d 3).isLt
  have e : (fun a : Fin 4 => (⟨((ix4 b h w c : S32x512x512x3.Idx) (a.cast rfl)).val * (![1, 1, 1, 1] : Fin 4 → ℕ) a
        + (d a).val - (![0, 0, 0, 0] : Fin 4 → ℕ) a, (hd a).2⟩ : Fin (S32x526x526x3.size a)))
      = (ix4 b (⟨h.val + (d 1).val, by omega⟩ : Fin 526) (⟨w.val + (d 2).val, by omega⟩ : Fin 526) c : S32x526x526x3.Idx) := by
    funext a
    apply Fin.ext
    match a with
    | ⟨0, _⟩ => show b.val * 1 + (d 0).val - 0 = b.val; omega
    | ⟨1, _⟩ => show h.val * 1 + (d 1).val - 0 = h.val + (d 1).val; omega
    | ⟨2, _⟩ => show w.val * 1 + (d 2).val - 0 = w.val + (d 2).val; omega
    | ⟨3, _⟩ => show c.val * 1 + (d 3).val - 0 = c.val; omega
  refine (congrArg (Read.val_main_v0 (F := Ideal) x) e).trans ?_
  rw [pad_apply x hc]
  show padNat _ (h.val + (d 1).val) (3 * (w.val + (d 2).val) + c.val) = _
  rw [show 3 * (w.val + (d 2).val) + c.val = 3 * w.val + c.val + 3 * (d 2).val by omega]

/-- The reference at (b, h, w, c): the minimum over 15 rows and 15 pixels of the zero-padded image `b`, read in the
    lane view at row `h`, lane 3w + c. -/
theorem ref_apply (x : S32x512x512x3.Idx → EReal) (hc : S32x512x512x3.ShapeCasts ⟨3, ![32, 512, 1536]⟩)
    (b : Fin 32) (h w : Fin 512) (c : Fin 3) :
    Read.val_main_v1 (F := Ideal) x (ix4 b h w c)
      = pool (padNat (sliceNat (shapeCast ⟨3, ![32, 512, 1536]⟩ x hc) b.val)) 3 h.val (3 * w.val + c.val) := by
  have hb := b.isLt
  have hh := h.isLt
  have hw := w.isLt
  have hcc := c.isLt
  unfold Read.val_main_v1
  -- every position of the 1 × 15 × 15 × 1 window lies inside the padded batch
  have hall : ∀ (n : Fin (⟨4, ![1, 15, 15, 1]⟩ : Shape).numel) (a : Fin 4),
      (![0, 0, 0, 0] : Fin 4 → ℕ) a ≤ ((ix4 b h w c : S32x512x512x3.Idx) (a.cast rfl)).val * (![1, 1, 1, 1] : Fin 4 → ℕ) a
          + ((⟨4, ![1, 15, 15, 1]⟩ : Shape).rowMajor.symm n a).val
        ∧ ((ix4 b h w c : S32x512x512x3.Idx) (a.cast rfl)).val * (![1, 1, 1, 1] : Fin 4 → ℕ) a
          + ((⟨4, ![1, 15, 15, 1]⟩ : Shape).rowMajor.symm n a).val - (![0, 0, 0, 0] : Fin 4 → ℕ) a < S32x526x526x3.size a := by
    intro n a
    generalize (⟨4, ![1, 15, 15, 1]⟩ : Shape).rowMajor.symm n = d
    have d0 : (d 0).val < 1 := (d 0).isLt
    have d1 : (d 1).val < 15 := (d 1).isLt
    have d2 : (d 2).val < 15 := (d 2).isLt
    have d3 : (d 3).val < 1 := (d 3).isLt
    match a with
    | ⟨0, _⟩ => show 0 ≤ b.val * 1 + (d 0).val ∧ b.val * 1 + (d 0).val - 0 < 32; omega
    | ⟨1, _⟩ => show 0 ≤ h.val * 1 + (d 1).val ∧ h.val * 1 + (d 1).val - 0 < 526; omega
    | ⟨2, _⟩ => show 0 ≤ w.val * 1 + (d 2).val ∧ w.val * 1 + (d 2).val - 0 < 526; omega
    | ⟨3, _⟩ => show 0 ≤ c.val * 1 + (d 3).val ∧ c.val * 1 + (d 3).val - 0 < 3; omega
  rw [reduceWindow_min_apply_inside _ _ _ _ _ _ _ h_S_ init_value (ix4 b h w c) hall, pool_eq]
  have key : ∀ n : Fin (⟨4, ![1, 15, 15, 1]⟩ : Shape).numel,
      Read.val_main_v0 (F := Ideal) x (fun a => ⟨((ix4 b h w c : S32x512x512x3.Idx) (a.cast rfl)).val * (![1, 1, 1, 1] : Fin 4 → ℕ) a
              + ((⟨4, ![1, 15, 15, 1]⟩ : Shape).rowMajor.symm n a).val - (![0, 0, 0, 0] : Fin 4 → ℕ) a, (hall n a).2⟩)
      = padNat (sliceNat (shapeCast ⟨3, ![32, 512, 1536]⟩ x hc) b.val)
          (h.val + ((⟨4, ![1, 15, 15, 1]⟩ : Shape).rowMajor.symm n 1).val)
          (3 * w.val + c.val + 3 * ((⟨4, ![1, 15, 15, 1]⟩ : Shape).rowMajor.symm n 2).val) :=
    fun n => window_entry x hc b h w c _ (hall n)
  refine le_antisymm ?_ ?_
  · -- every entry of the lane view's window is one of the window's positions
    refine Finset.le_inf fun dw hdw => Finset.le_inf fun dh hdh => ?_
    have hdw' : dw < 15 := Finset.mem_range.mp hdw
    have hdh' : dh < 15 := Finset.mem_range.mp hdh
    refine (Finset.inf_le (Finset.mem_univ
      ((⟨4, ![1, 15, 15, 1]⟩ : Shape).rowMajor (ix4 (0 : Fin 1) (⟨dh, hdh'⟩ : Fin 15) (⟨dw, hdw'⟩ : Fin 15) (0 : Fin 1))))).trans ?_
    refine (le_of_eq (key _)).trans ?_
    rw [Equiv.symm_apply_apply]
  · -- every one of the window's positions is an entry of the lane view's window
    refine Finset.le_inf fun n _ => ?_
    refine le_trans ?_ (le_of_eq (key n).symm)
    exact (Finset.inf_le (Finset.mem_range.mpr ((⟨4, ![1, 15, 15, 1]⟩ : Shape).rowMajor.symm n 2).isLt)).trans
      (Finset.inf_le (Finset.mem_range.mpr ((⟨4, ![1, 15, 15, 1]⟩ : Shape).rowMajor.symm n 1).isLt))

/-- The reference's result is `poolArr` of the lane view of its argument, viewed back as [32, 512, 512, 3]. -/
theorem ref_eq (x : S32x512x512x3.Idx → EReal) (hc : S32x512x512x3.ShapeCasts ⟨3, ![32, 512, 1536]⟩)
    (hc' : (⟨3, ![32, 512, 1536]⟩ : Shape).ShapeCasts S32x512x512x3) :
    Read.val_main_v1 (F := Ideal) x
      = shapeCast S32x512x512x3 (poolArr (shapeCast ⟨3, ![32, 512, 1536]⟩ x hc)) hc' := by
  funext i
  obtain ⟨b, h, w, c, rfl⟩ : ∃ (b : Fin 32) (h w : Fin 512) (c : Fin 3), i = ix4 b h w c := ⟨i 0, i 1, i 2, i 3, eq_ix4 i⟩
  have hw := w.isLt
  have hcc := c.isLt
  rw [ref_apply x hc]
  refine Eq.symm ((shapeCast_apply _ hc' (ix4 b h w c) (ix3 b h (⟨3 * w.val + c.val, by omega⟩ : Fin 1536)) ?_).trans ?_)
  · rw [Shape.rowMajor_val_three, Shape.rowMajor_val_four]
    show (b.val * 512 + h.val) * 1536 + (3 * w.val + c.val) = ((b.val * 512 + h.val) * 512 + w.val) * 3 + c.val
    omega
  · exact poolArr_apply _ _ b.val h.val (3 * w.val + c.val) rfl rfl rfl

end Cert.ReferenceIdeal.Hand

end
-- ==== Proof.lean ====
/-
  A 15 × 15 minimum filter over zero-padded images: the kernel against the reference, on the extended reals.

  The argument is a batch of 32 images of 512 × 512 pixels with 3 channels. The reference pads every image with 7
  rows and 7 pixels of zeros on each side and takes, at each pixel and channel, the minimum over the 15 × 15 pixel
  window, starting from +∞. The kernel views each image as 512 rows of 1536 lanes (pixel q, channel c at lane
  3q + c), builds the zero-padded image in a scratch buffer (7 rows and 21 lanes of zeros around it), takes the
  minimum over 15 rows by doubling (windows of 2, 4, 8, then 15 by two windows of 8 seven rows apart), then the minimum
  over 15 pixels the same way along the lanes at stride 3, and views the result back.

  Both are the same infimum: the minimum is associative, commutative and idempotent, so a window of 15 is the meet of
  two overlapping windows of 8, the order of the 225 positions does not matter, and +∞ is neutral. No finiteness of
  the input is needed. `Spec.poolArr` states the common value on the lane view; `Region.final` and `KernelRun.run` show
  the kernel computes it, `Reference.ref_eq` that the reference does.
-/
import proofs.«140625_j9371618640650_2_alg».proof.Defs
import proofs.«140625_j9371618640650_2_alg».proof.Proof.Gen.Kernel
import proofs.«140625_j9371618640650_2_alg».proof.Proof.Gen.Kernel.Skeleton
import proofs.«140625_j9371618640650_2_alg».proof.Proof.Gen.Kernel.Launch
import proofs.«140625_j9371618640650_2_alg».proof.Proof.Gen.Kernel.Points
import proofs.«140625_j9371618640650_2_alg».proof.Proof.Gen.Kernel.Frame
import proofs.«140625_j9371618640650_2_alg».proof.Proof.Gen.KernelIdeal
import proofs.«140625_j9371618640650_2_alg».proof.Proof.Gen.KernelIdeal.Skeleton
import proofs.«140625_j9371618640650_2_alg».proof.Proof.Gen.KernelIdeal.Launch
import proofs.«140625_j9371618640650_2_alg».proof.Proof.Gen.KernelIdeal.Points
import proofs.«140625_j9371618640650_2_alg».proof.Proof.Gen.KernelIdeal.Frame
import proofs.«140625_j9371618640650_2_alg».proof.Proof.Gen.ReferenceIdeal
import proofs.«140625_j9371618640650_2_alg».proof.Proof.Gen.Pre_finite_inputs
import proofs.«140625_j9371618640650_2_alg».proof.Proof.Gen.ReferenceIdeal.Run
import proofs.«140625_j9371618640650_2_alg».proof.Proof.Gen.ReferenceIdeal.Read
import proofs.«140625_j9371618640650_2_alg».proof.Proof.KernelRun
import proofs.«140625_j9371618640650_2_alg».proof.Proof.Reference
import Idealize.ShloMosaic.Adequacy
import Idealize.ShloMosaic.Init

noncomputable section

namespace Cert.Proof

open Idealize.ShloMosaic Idealize.SL.Sem

/-- The kernel as printed runs and leaves its argument unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its argument unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the 15 × 15 window minimum of the zero-padded images. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, hagree c]
  exact Cert.ReferenceIdeal.Hand.ref_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
